-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S2000x128 : Shape := ⟨2, ![2000, 128]⟩
abbrev S1x128 : Shape := ⟨2, ![1, 128]⟩

abbrev nBuf : Space → Nat
  | .hbm => 42
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call2_cst : Ref sig .tc := ⟨.hbm, 60, rfl⟩
abbrev main_call2_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call3_cst : Ref sig .tc := ⟨.hbm, 67, rfl⟩
abbrev main_call3_v0 : Ref sig .tc := ⟨.hbm, 68, rfl⟩
abbrev main_v45 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named. The program is four stretches: host operations (the edge lists cut
  out of the index array, the gather of source rows and their scatter-add onto the destination rows), the first
  perceptron launch over 25 row blocks, the same host operations again on the first launch's result, and the second
  launch. Every weakly fair execution from a memory with zero counters terminates without a fault; at the end the result
  array holds what the fold of the four stretches' contents holds at it (the second launch's write-backs, `W4`), and
  the ten argument arrays hold what they were launched with. The proof instantiates the several-region launch theorem at
  the program's four segments and keeps, of the final thread state, the result array beside the arguments.
-/
import proofs.«161390_j23828478558294_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last boundary's contents. -/
theorem run_named : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Hand

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibGinStages.lean ====
/-
  The three dense stages of a graph-isomorphism network, read entry by entry on the extended reals, generic in the row
  count so that one statement serves a whole array and a block of its rows:
  * `embedRows`: one affine layer followed by a ReLU, `max (row · w + b) 0`;
  * `ginRows`: the node's row plus its neighbours' sum, through a two-layer perceptron with a ReLU after each layer;
  * the read-out head is the two-layer perceptron `LibMlp.mlp2` (no ReLU after the second layer).
  Each stage comes in the two spellings the programs use: the vector-unit spelling (operands rounded to bfloat16 — the
  identity on the extended reals —, matrix products into a zero accumulator, a bias laid out as one row and repeated
  down the rows, the ReLU as a maximum with a zero splat) and the host spelling (`dot_general`, two-step bias
  broadcasts, a maximum with a broadcast zero). Both are the same sums of the same products, term by term, so no
  finiteness is used anywhere. Every entry of a stage depends on ONE row of its operands: `embedRows_rows`,
  `ginRows_rows`, `mlp2_rows` say that a stage of a block of rows is that block of the stage.
-/
import proofs.«161390_j23828478558294_1_alg».proof.Proof.LibMlpRows

noncomputable section

namespace Cert.Net

open Idealize.ShloMosaic Idealize.ShloMosaic.ValueIdx Cert.LibMlp
open scoped BigOperators

/-- The binary32 zero word's value: the floor of every ReLU here. -/
abbrev zr : EReal := Ideal.ofBits .f32 0x00000000#32

/-- One affine layer and a ReLU on every row: entry `(r, q)` is `max (∑ j, X (r, j) · w (j, q) + b q) 0`. -/
def embedRows {R I H : ℕ} (X : (⟨2, ![R, I]⟩ : Shape).Idx → EReal) (w : (⟨2, ![I, H]⟩ : Shape).Idx → EReal)
    (b : (⟨1, ![H]⟩ : Shape).Idx → EReal) : (⟨2, ![R, H]⟩ : Shape).Idx → EReal :=
  fun i => max ((∑ j : Fin I, X (ix2 (i 0) j) * w (ix2 j (i 1))) + b (ix1 (i 1))) zr

/-- A message-passing layer's dense half on every row: the row of `X` plus the row of `A` (the neighbours' sum),
    through the perceptron, floored at zero. -/
def ginRows {R I H O : ℕ} (X A : (⟨2, ![R, I]⟩ : Shape).Idx → EReal) (w1 : (⟨2, ![I, H]⟩ : Shape).Idx → EReal)
    (b1 : (⟨1, ![H]⟩ : Shape).Idx → EReal) (w2 : (⟨2, ![H, O]⟩ : Shape).Idx → EReal) (b2 : (⟨1, ![O]⟩ : Shape).Idx → EReal) :
    (⟨2, ![R, O]⟩ : Shape).Idx → EReal :=
  fun i => max (mlpRow zr (fun j => X (ix2 (i 0) j) + A (ix2 (i 0) j)) w1 b1 w2 b2 (i 1)) zr

theorem embedRows_ix2 {R I H : ℕ} (X : (⟨2, ![R, I]⟩ : Shape).Idx → EReal) (w : (⟨2, ![I, H]⟩ : Shape).Idx → EReal)
    (b : (⟨1, ![H]⟩ : Shape).Idx → EReal) (p : Fin R) (q : Fin H) :
    embedRows X w b (ix2 p q) = max ((∑ j : Fin I, X (ix2 p j) * w (ix2 j q)) + b (ix1 q)) zr := rfl

theorem ginRows_ix2 {R I H O : ℕ} (X A : (⟨2, ![R, I]⟩ : Shape).Idx → EReal) (w1 : (⟨2, ![I, H]⟩ : Shape).Idx → EReal)
    (b1 : (⟨1, ![H]⟩ : Shape).Idx → EReal) (w2 : (⟨2, ![H, O]⟩ : Shape).Idx → EReal) (b2 : (⟨1, ![O]⟩ : Shape).Idx → EReal)
    (p : Fin R) (q : Fin O) :
    ginRows X A w1 b1 w2 b2 (ix2 p q) = max (mlpRow zr (fun j => X (ix2 p j) + A (ix2 p j)) w1 b1 w2 b2 q) zr := rfl

/-! ## A stage of a block of rows is that block of the stage -/

/-- If row `p` of the block `Xb` is row `r` of the array `X`, entry `(p, q)` of the block's stage is entry `(r, q)` of the array's. -/
theorem embedRows_rows {R R' I H : ℕ} (X : (⟨2, ![R, I]⟩ : Shape).Idx → EReal) (Xb : (⟨2, ![R', I]⟩ : Shape).Idx → EReal)
    (w : (⟨2, ![I, H]⟩ : Shape).Idx → EReal) (b : (⟨1, ![H]⟩ : Shape).Idx → EReal) (p : Fin R') (r : Fin R) (q : Fin H)
    (hX : ∀ j, Xb (ix2 p j) = X (ix2 r j)) : embedRows Xb w b (ix2 p q) = embedRows X w b (ix2 r q) := by
  rw [embedRows_ix2, embedRows_ix2]; simp only [hX]

theorem ginRows_rows {R R' I H O : ℕ} (X A : (⟨2, ![R, I]⟩ : Shape).Idx → EReal) (Xb Ab : (⟨2, ![R', I]⟩ : Shape).Idx → EReal)
    (w1 : (⟨2, ![I, H]⟩ : Shape).Idx → EReal) (b1 : (⟨1, ![H]⟩ : Shape).Idx → EReal) (w2 : (⟨2, ![H, O]⟩ : Shape).Idx → EReal)
    (b2 : (⟨1, ![O]⟩ : Shape).Idx → EReal) (p : Fin R') (r : Fin R) (q : Fin O)
    (hX : ∀ j, Xb (ix2 p j) = X (ix2 r j)) (hA : ∀ j, Ab (ix2 p j) = A (ix2 r j)) :
    ginRows Xb Ab w1 b1 w2 b2 (ix2 p q) = ginRows X A w1 b1 w2 b2 (ix2 r q) := by
  rw [ginRows_ix2, ginRows_ix2]; simp only [hX, hA]

theorem mlp2_rows {R R' I H O : ℕ} (X : (⟨2, ![R, I]⟩ : Shape).Idx → EReal) (Xb : (⟨2, ![R', I]⟩ : Shape).Idx → EReal)
    (w1 : (⟨2, ![I, H]⟩ : Shape).Idx → EReal) (b1 : (⟨1, ![H]⟩ : Shape).Idx → EReal) (w2 : (⟨2, ![H, O]⟩ : Shape).Idx → EReal)
    (b2 : (⟨1, ![O]⟩ : Shape).Idx → EReal) (p : Fin R') (r : Fin R) (q : Fin O)
    (hX : ∀ j, Xb (ix2 p j) = X (ix2 r j)) : mlp2 Xb w1 b1 w2 b2 (ix2 p q) = mlp2 X w1 b1 w2 b2 (ix2 r q) := by
  rw [mlp2_ix2, mlp2_ix2]; simp only [hX]

/-! ## The vector-unit spellings, at an entry -/

/-- The embedding body: the block rounded to bfloat16 times the (already bfloat16) weights into a zero accumulator, plus
    the bias row repeated down the rows, floored at the zero splat. -/
theorem embed_body_apply {R I H : ℕ}
    (d : DotDims ⟨2, ![R, I]⟩ ⟨2, ![I, H]⟩ ⟨2, ![R, H]⟩) (hd : d = DotDims.plain R I H)
    (x : FVec Ideal ⟨2, ![R, I]⟩ .f32) (w : FVec Ideal ⟨2, ![I, H]⟩ .bf16) (b : FVec Ideal ⟨1, ![H]⟩ .f32)
    (hw : (⟨2, ![I, H]⟩ : Shape).ShapeCasts ⟨2, ![I, H]⟩)
    (hb : (⟨1, ![H]⟩ : Shape).ShapeCasts ⟨2, ![1, H]⟩) (hB : (⟨2, ![1, H]⟩ : Shape).Broadcasts ⟨2, ![R, H]⟩)
    (ht : FTy.bf16.bits < FTy.f32.bits) (p : Fin R) (q : Fin H) :
    maximumf (addf (matmul d none (truncf .bf16 x ht) (shapeCast ⟨2, ![I, H]⟩ w hw) (constant ⟨2, ![R, H]⟩ .f32 0x00000000#32))
        (broadcastTo ⟨2, ![R, H]⟩ (shapeCast ⟨2, ![1, H]⟩ b hb) hB)) (broadcast ⟨2, ![R, H]⟩ (Scalar.ofBits .f32 0x00000000#32)) (ix2 p q)
    = embedRows x w b (ix2 p q) := by
  subst hd
  simp only [embedRows_ix2, matmul, addf_apply, maximumf_apply, truncf_apply, matmul_zero_plain,
    broadcastTo_1b_ab_apply, shapeCast_a_1a_apply, shapeCast_self, broadcast_apply]
  rfl

/-- The message-passing body: the two loaded blocks added, then the perceptron with a ReLU after each layer. Each
    loaded operand passes through a cast to its own shape first, as the body spells it. -/
theorem gin_body_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x a : FVec Ideal ⟨2, ![R, I]⟩ .f32) (w1 : FVec Ideal ⟨2, ![I, H]⟩ .bf16) (b1 : FVec Ideal ⟨1, ![H]⟩ .f32)
    (w2 : FVec Ideal ⟨2, ![H, O]⟩ .bf16) (b2 : FVec Ideal ⟨1, ![O]⟩ .f32)
    (hx : (⟨2, ![R, I]⟩ : Shape).ShapeCasts ⟨2, ![R, I]⟩)
    (hw1 : (⟨2, ![I, H]⟩ : Shape).ShapeCasts ⟨2, ![I, H]⟩) (hw2 : (⟨2, ![H, O]⟩ : Shape).ShapeCasts ⟨2, ![H, O]⟩)
    (hs1 : (⟨1, ![H]⟩ : Shape).ShapeCasts ⟨1, ![H]⟩) (hs2 : (⟨1, ![O]⟩ : Shape).ShapeCasts ⟨1, ![O]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    maximumf (addf (matmul d2 none (truncf .bf16 (maximumf (addf (matmul d1 none
          (truncf .bf16 (addf (shapeCast ⟨2, ![R, I]⟩ x hx) (shapeCast ⟨2, ![R, I]⟩ a hx)) ht) (shapeCast ⟨2, ![I, H]⟩ w1 hw1) (constant ⟨2, ![R, H]⟩ .f32 0x00000000#32))
        (broadcastTo ⟨2, ![R, H]⟩ (shapeCast ⟨2, ![1, H]⟩ (shapeCast ⟨1, ![H]⟩ b1 hs1) hb1) hB1)) (broadcast ⟨2, ![R, H]⟩ (Scalar.ofBits .f32 0x00000000#32))) ht)
          (shapeCast ⟨2, ![H, O]⟩ w2 hw2) (constant ⟨2, ![R, O]⟩ .f32 0x00000000#32))
      (broadcastTo ⟨2, ![R, O]⟩ (shapeCast ⟨2, ![1, O]⟩ (shapeCast ⟨1, ![O]⟩ b2 hs2) hb2) hB2)) (broadcast ⟨2, ![R, O]⟩ (Scalar.ofBits .f32 0x00000000#32)) (ix2 p q)
    = ginRows x a w1 b1 w2 b2 (ix2 p q) := by
  subst hd1 hd2
  simp only [ginRows_ix2, mlpRow, matmul, addf_apply, maximumf_apply, truncf_apply, matmul_zero_plain,
    broadcastTo_1b_ab_apply, shapeCast_a_1a_apply, shapeCast_self, broadcast_apply]
  rfl

/-- The read-out body: the perceptron with one ReLU, between the layers. -/
theorem head_body_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .bf16) (b1 : FVec Ideal ⟨1, ![H]⟩ .f32)
    (w2 : FVec Ideal ⟨2, ![H, O]⟩ .bf16) (b2 : FVec Ideal ⟨1, ![O]⟩ .f32)
    (hx : (⟨2, ![R, I]⟩ : Shape).ShapeCasts ⟨2, ![R, I]⟩)
    (hw1 : (⟨2, ![I, H]⟩ : Shape).ShapeCasts ⟨2, ![I, H]⟩) (hw2 : (⟨2, ![H, O]⟩ : Shape).ShapeCasts ⟨2, ![H, O]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none
          (truncf .bf16 (shapeCast ⟨2, ![R, I]⟩ x hx) ht) (shapeCast ⟨2, ![I, H]⟩ w1 hw1) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht)
          (shapeCast ⟨2, ![H, O]⟩ w2 hw2) (constant ⟨2, ![R, O]⟩ .f32 0x00000000#32))
      (broadcastTo ⟨2, ![R, O]⟩ (shapeCast ⟨2, ![1, O]⟩ b2 hb2) hB2) (ix2 p q)
    = mlp2 x w1 b1 w2 b2 (ix2 p q) := by
  subst hd1 hd2
  simp only [mlp2_ix2, mlpRow, matmul, addf_apply, maximumf_apply, truncf_apply, matmul_zero_plain,
    broadcastTo_1b_ab_apply, shapeCast_a_1a_apply, shapeCast_self, broadcast_apply]
  rfl

/-! ## The host spellings, at an entry -/

/-- A bias broadcast to one row and then down the rows, read at an entry. -/
theorem bias_rows_apply {R H : ℕ} (b : FVec Ideal ⟨1, ![H]⟩ .f32)
    (hb : (⟨1, ![H]⟩ : Shape).BroadcastsInDim ⟨2, ![1, H]⟩ ![1]) (hB : (⟨2, ![1, H]⟩ : Shape).BroadcastsInDim ⟨2, ![R, H]⟩ ![0, 1])
    (r : Fin R) (k : Fin H) :
    broadcastInDim ⟨2, ![R, H]⟩ ![0, 1] hB (broadcastInDim ⟨2, ![1, H]⟩ ![1] hb b) (ix2 r k) = b (ix1 k) := by
  rw [broadcastInDim_apply ![0, 1] hB _ (ix2 r k) (ix2 (0 : Fin 1) k) (fun a => by
    match a with
    | ⟨0, _⟩ => rfl
    | ⟨1, _⟩ => show k.val = if H = 1 then 0 else k.val; split <;> [(have := k.isLt; omega); rfl])]
  exact broadcastInDim_apply ![1] hb _ (ix2 (0 : Fin 1) k) (ix1 k) (fun a => by
    match a with
    | ⟨0, _⟩ => show k.val = if H = 1 then 0 else k.val; split <;> [(have := k.isLt; omega); rfl])

/-- A scalar zero broadcast to a matrix, read at an entry. -/
theorem zero_rows_apply {R H : ℕ} (hz : (⟨0, ![]⟩ : Shape).BroadcastsInDim ⟨2, ![R, H]⟩ ![]) (r : Fin R) (k : Fin H) :
    broadcastInDim ⟨2, ![R, H]⟩ ![] hz (constant (F := Ideal) ⟨0, ![]⟩ .f32 0x00000000#32) (ix2 r k) = zr :=
  broadcastInDim_apply ![] hz _ (ix2 r k) ix0 (fun a => a.elim0)

/-- The embedding as the host spells it. -/
theorem embed_host_apply {R I H : ℕ}
    (d : DotDims ⟨2, ![R, I]⟩ ⟨2, ![I, H]⟩ ⟨2, ![R, H]⟩) (hd : d = DotDims.plain R I H)
    (x : FVec Ideal ⟨2, ![R, I]⟩ .f32) (w : FVec Ideal ⟨2, ![I, H]⟩ .f32) (b : FVec Ideal ⟨1, ![H]⟩ .f32)
    (hb : (⟨1, ![H]⟩ : Shape).BroadcastsInDim ⟨2, ![1, H]⟩ ![1]) (hB : (⟨2, ![1, H]⟩ : Shape).BroadcastsInDim ⟨2, ![R, H]⟩ ![0, 1])
    (hz : (⟨0, ![]⟩ : Shape).BroadcastsInDim ⟨2, ![R, H]⟩ ![]) (p : Fin R) (q : Fin H) :
    maximumf (addf (Host.dotGeneral d none x w) (broadcastInDim ⟨2, ![R, H]⟩ ![0, 1] hB (broadcastInDim ⟨2, ![1, H]⟩ ![1] hb b)))
      (broadcastInDim ⟨2, ![R, H]⟩ ![] hz (constant (F := Ideal) ⟨0, ![]⟩ .f32 0x00000000#32)) (ix2 p q)
    = embedRows x w b (ix2 p q) := by
  subst hd
  have bias : ∀ (r : Fin R) (k : Fin H), broadcastInDim ⟨2, ![R, H]⟩ ![0, 1] hB (broadcastInDim ⟨2, ![1, H]⟩ ![1] hb b) (ix2 r k) = b (ix1 k) :=
    fun r k => bias_rows_apply b hb hB r k
  have zero : ∀ (r : Fin R) (k : Fin H), broadcastInDim ⟨2, ![R, H]⟩ ![] hz (constant (F := Ideal) ⟨0, ![]⟩ .f32 0x00000000#32) (ix2 r k) = zr :=
    fun r k => zero_rows_apply hz r k
  simp only [embedRows_ix2, Host.dotGeneral, addf_apply, maximumf_apply, dotGeneral_plain, bias, zero]

/-- The message-passing layer as the host spells it: the sum of the two arrays through the perceptron, then the outer ReLU. -/
theorem gin_host_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x a : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz1 : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (hz2 : (⟨0, ![]⟩ : Shape).BroadcastsInDim ⟨2, ![R, O]⟩ ![]) (p : Fin R) (q : Fin O) :
    maximumf (addf (Host.dotGeneral d2 none (maximumf (addf (Host.dotGeneral d1 none (addf x a) w1)
        (broadcastInDim ⟨2, ![R, H]⟩ ![0, 1] hB1 (broadcastInDim ⟨2, ![1, H]⟩ ![1] hb1 b1)))
        (broadcastInDim ⟨2, ![R, H]⟩ ![] hz1 (constant (F := Ideal) ⟨0, ![]⟩ .f32 0x00000000#32))) w2)
      (broadcastInDim ⟨2, ![R, O]⟩ ![0, 1] hB2 (broadcastInDim ⟨2, ![1, O]⟩ ![1] hb2 b2)))
      (broadcastInDim ⟨2, ![R, O]⟩ ![] hz2 (constant (F := Ideal) ⟨0, ![]⟩ .f32 0x00000000#32)) (ix2 p q)
    = ginRows x a w1 b1 w2 b2 (ix2 p q) := by
  rw [maximumf_apply, host_mlp_apply d1 hd1 d2 hd2 (addf x a) w1 b1 w2 b2 hb1 hB1 hz1 hb2 hB2 p q, zero_rows_apply, ginRows_ix2]
  simp only [addf_apply]

/-- Rounding to bfloat16 is the identity on the extended reals, as a statement about whole arrays. -/
theorem truncf_id {S : Shape} (x : FVec Ideal S .f32) (ht : FTy.bf16.bits < FTy.f32.bits) :
    (truncf .bf16 x ht : S.Idx → EReal) = x := by
  funext i; simp only [truncf_apply]

end Cert.Net

end
-- ==== Proof.LibGinBodyF32.lean ====
/-
  The dense half of a message-passing layer as a vector unit spells it when the weights arrive in binary32 and are
  rounded to bfloat16 inside the body: the sum `s` of the node's rows and their neighbours' sums, rounded, times the rounded
  first weights into a zero accumulator, plus the first bias laid out as one row and repeated down the rows, floored at
  the zero splat; that again rounded, times the rounded second weights, plus the second bias, floored again. On the
  extended reals every rounding is the identity and each product into a zero accumulator is a plain sum, so entry
  `(p, q)` is `max (mlpRow (row p of s)) 0`; with `s = x + a` entry by entry this is `Cert.Net.ginRows x a`.
  Generic in the row count and the three widths. No finiteness is used.
-/
import proofs.«161390_j23828478558294_1_alg».proof.Proof.LibGinStages

noncomputable section

namespace Cert.Net

open Idealize.ShloMosaic Idealize.ShloMosaic.ValueIdx Cert.LibMlp
open scoped BigOperators

/-- The body's arithmetic at an entry, over the already-summed operand `s`. -/
theorem gin_body_f32_sum_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (s : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    maximumf (addf (matmul d2 none (truncf .bf16 (maximumf (addf (matmul d1 none
          (truncf .bf16 s ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht)
          (truncf .bf16 w2 ht) (constant ⟨2, ![R, O]⟩ .f32 0x00000000#32))
      (broadcastTo ⟨2, ![R, O]⟩ (shapeCast ⟨2, ![1, O]⟩ b2 hb2) hB2)) (broadcast ⟨2, ![R, O]⟩ (Scalar.ofBits .f32 0x00000000#32)) (ix2 p q)
    = max (mlpRow zr (fun j => s (ix2 p j)) w1 b1 w2 b2 q) zr := by
  subst hd1 hd2
  simp only [mlpRow, matmul, addf_apply, maximumf_apply, truncf_apply, matmul_zero_plain,
    broadcastTo_1b_ab_apply, shapeCast_a_1a_apply, broadcast_apply]
  rfl

/-- The same with the sum spelt in the body: `x` plus `a`, each possibly passed through a cast to its own shape
    (`cx`, `ca` are those casts' results; `hx`, `ha` say they are the operands). -/
theorem gin_body_f32_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x a cx ca : FVec Ideal ⟨2, ![R, I]⟩ .f32) (hx : cx = x) (ha : ca = a)
    (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    maximumf (addf (matmul d2 none (truncf .bf16 (maximumf (addf (matmul d1 none
          (truncf .bf16 (addf cx ca) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht)
          (truncf .bf16 w2 ht) (constant ⟨2, ![R, O]⟩ .f32 0x00000000#32))
      (broadcastTo ⟨2, ![R, O]⟩ (shapeCast ⟨2, ![1, O]⟩ b2 hb2) hB2)) (broadcast ⟨2, ![R, O]⟩ (Scalar.ofBits .f32 0x00000000#32)) (ix2 p q)
    = ginRows x a w1 b1 w2 b2 (ix2 p q) := by
  subst hx ha
  rw [gin_body_f32_sum_apply d1 hd1 d2 hd2 (addf cx ca) w1 b1 w2 b2 hb1 hB1 hb2 hB2 ht p q, ginRows_ix2]
  simp only [addf_apply]

end Cert.Net

end
-- ==== Proof.FirstLaunch.lean ====
/-
  The first launch as one function of the arrays it finds. The grid has 25 points; point t stages rows
  2000·t … 2000·t + 1999 of the node array and of the neighbour-sum array, and the two weight matrices and the two bias
  vectors whole; its body leaves in the output's staging buffer, at row p and column q, the message-passing perceptron of
  row p of the two staged blocks (`Cert.Net.ginRows`), and that buffer is written back to rows 2000·t … of the output.
  An entry of `ginRows` depends on one row only, so what point t writes back is the block at rows 2000·t … of `ginRows`
  of the WHOLE arrays; the 25 blocks tile the 50000 rows (row r lies in the block of point r / 2000), hence after the
  launch the output array is `ginRows` of the arrays the launch was entered with.
-/
import proofs.«161390_j23828478558294_1_alg».proof.Proof.Gen.KernelIdeal.Frame
import proofs.«161390_j23828478558294_1_alg».proof.Proof.LibGinBodyF32
import Idealize.ShloMosaic.Lib.Pipeline.Value
import Idealize.ShloMosaic.Lib.ValueIdx

set_option maxRecDepth 16384

noncomputable section

namespace Cert.KernelIdeal.FirstLaunch

open Cert.KernelIdeal Cert.KernelIdeal.Gen Cert.Net
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at an entry is the perceptron of the entry's row of the two row blocks. -/
theorem pay_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k0_pay1 x0 x1 x2 x3 x4 x5 (ix2 p q) = ginRows x0 x1 x2 x3 x4 x5 (ix2 p q) := by
  unfold k0_pay1
  exact gin_body_f32_apply dot_S2000x128_S128x128_S2000x128_1_0_0_1_n_n rfl dot_S2000x128_S128x128_S2000x128_1_0_0_1_n_n rfl
    x0 x1 x0 (shapeCast S2000x128 x1 shapeCasts_S2000x128_S2000x128) rfl (shapeCast_self x1 shapeCasts_S2000x128_S2000x128)
    x2 x3 x4 x5 shapeCasts_S128_S1x128 broadcasts_S1x128_S2000x128 shapeCasts_S128_S1x128 broadcasts_S1x128_S2000x128 bitsLt_bf16_f32 p q

/-- The same against whole arrays `X`, `A` of which row p of the two blocks is row r. -/
theorem point_eq (X A : FVec Ideal S50000x128 .f32) (W1 : FVec Ideal S128x128 .f32) (B1 : FVec Ideal S128 .f32)
    (W2 : FVec Ideal S128x128 .f32) (B2 : FVec Ideal S128 .f32)
    (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) (r : Fin 50000)
    (h0 : ∀ j : Fin 128, x0 (ix2 p j) = X (ix2 r j)) (h1 : ∀ j : Fin 128, x1 (ix2 p j) = A (ix2 r j))
    (h2 : x2 = W1) (h3 : x3 = B1) (h4 : x4 = W2) (h5 : x5 = B2) :
    k0_pay1 x0 x1 x2 x3 x4 x5 (ix2 p q) = ginRows X A W1 B1 W2 B2 (ix2 r q) := by
  subst h2 h3 h4 h5
  rw [pay_apply]
  exact ginRows_rows X A x0 x1 x2 x3 x4 x5 p r q h0 h1

/-- The printed index maps over the grid: the row-block windows sit at block row t, the others at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of the node window's block at point t is row 2000·t + p of the node array. -/
theorem blk_x (c : Dev nD) (t : Fin cfg0.N) (y0 : Fin 2000) (j : Fin 128) (r : Fin 50000) (hr : r.val = t.val * 2000 + 1 * y0.val) :
    (iblk0 V c 0 t : Vec Ideal S2000x128 .f32) (ix2 y0 j) = (V c main_arg0 : FVec Ideal S50000x128 .f32) (ix2 r j) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * y0.val = r.val; rw [e0, hr]
  | ⟨1, _⟩ => show win0_0.index t (1 : Fin 2) * 128 + 1 * j.val = j.val; rw [e1]; omega

/-- Row p of the neighbour-sum window's block at point t is row 2000·t + p of the neighbour-sum array. -/
theorem blk_a (c : Dev nD) (t : Fin cfg0.N) (y0 : Fin 2000) (j : Fin 128) (r : Fin 50000) (hr : r.val = t.val * 2000 + 1 * y0.val) :
    (iblk0 V c 1 t : Vec Ideal S2000x128 .f32) (ix2 y0 j) = (V c main_v13 : FVec Ideal S50000x128 .f32) (ix2 r j) := by
  obtain ⟨-, -, e0, e1, -⟩ := idx_facts t
  unfold iblk0
  rw [View.read_apply]
  show V c main_v13 _ = V c main_v13 _
  refine congrArg (V c main_v13) (funext fun a => Fin.ext ?_)
  match a with
  | ⟨0, _⟩ => show win0_1.index t (0 : Fin 2) * 2000 + 1 * y0.val = r.val; rw [e0, hr]
  | ⟨1, _⟩ => show win0_1.index t (1 : Fin 2) * 128 + 1 * j.val = j.val; rw [e1]; omega

/-- The weight and bias windows stage their arrays whole at every point. -/
theorem blk_w1 (c : Dev nD) (t : Fin cfg0.N) : (iblk0 V c 2 t : Vec Ideal S128x128 .f32) = V c main_arg2 := by
  obtain ⟨-, -, -, -, e0, e1, -⟩ := idx_facts t
  unfold iblk0
  funext y
  rw [View.read_apply]
  show V c main_arg2 _ = V c main_arg2 y
  refine congrArg (V c main_arg2) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem blk_b1 (c : Dev nD) (t : Fin cfg0.N) : (iblk0 V c 3 t : Vec Ideal S128 .f32) = V c main_arg3 := by
  obtain ⟨-, -, -, -, -, -, e0, -⟩ := idx_facts t
  unfold iblk0
  funext y
  rw [View.read_apply]
  show V c main_arg3 _ = V c main_arg3 y
  refine congrArg (V c main_arg3) (funext fun a => Fin.ext ?_)
  match a with
  | ⟨0, _⟩ => show win0_3.index t (0 : Fin 1) * 128 + 1 * (y 0).val = (y 0).val; rw [e0]; omega

theorem blk_w2 (c : Dev nD) (t : Fin cfg0.N) : (iblk0 V c 4 t : Vec Ideal S128x128 .f32) = V c main_arg4 := by
  obtain ⟨-, -, -, -, -, -, -, e0, e1, -⟩ := idx_facts t
  unfold iblk0
  funext y
  rw [View.read_apply]
  show V c main_arg4 _ = V c main_arg4 y
  refine congrArg (V c main_arg4) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk_b2 (c : Dev nD) (t : Fin cfg0.N) : (iblk0 V c 5 t : Vec Ideal S128 .f32) = V c main_arg5 := by
  obtain ⟨-, -, -, -, -, -, -, -, -, e0, -⟩ := idx_facts t
  unfold iblk0
  funext y
  rw [View.read_apply]
  show V c main_arg5 _ = V c main_arg5 y
  refine congrArg (V c main_arg5) (funext fun a => Fin.ext ?_)
  match a with
  | ⟨0, _⟩ => show win0_5.index t (0 : Fin 1) * 128 + 1 * (y 0).val = (y 0).val; rw [e0]; omega

/-- The launch's result as a function of the arrays it is entered with. -/
abbrev layerOf (c : Dev nD) : FVec Ideal S50000x128 .f32 :=
  ginRows (V c main_arg0) (V c main_v13) (V c main_arg2) (V c main_arg3) (V c main_arg4) (V c main_arg5)

/-- What point t writes back is block t of `layerOf`. -/
theorem flushed_eq (c : Dev nD) (t : Fin cfg0.N) :
    (dat0 V c).flushed 6 t = ((cfg0.win 6).blk t).view.read (Elt Ideal) (layerOf V c) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128x128) hz2, View.ld_unit_zero (S := S128) hz1]
  obtain ⟨-, -, -, -, -, -, -, -, -, -, e0, e1⟩ := idx_facts t
  have hN : cfg0.N = 25 := N_0
  have htl : t.val < cfg0.N := t.isLt
  funext y
  have hy0 : (y 0).val < 2000 := (y 0).isLt
  show k0_pay1 (iblk0 V c 0 t) (iblk0 V c 1 t) (iblk0 V c 2 t) (iblk0 V c 3 t) (iblk0 V c 4 t) (iblk0 V c 5 t) y
    = layerOf V c (((cfg0.win 6).blk t).view.emb y)
  have hy : y = ix2 (n0 := 2000) (n1 := 128) (y 0) (y 1) := eq_ix2 (n0 := 2000) (n1 := 128) y
  have he : ((cfg0.win 6).blk t).view.emb y
      = ix2 (n0 := 50000) (n1 := 128) ⟨t.val * 2000 + 1 * (y 0).val, by omega⟩ (y 1) :=
    funext fun a => Fin.ext (by
      match a with
      | ⟨0, _⟩ => show win0_6.index t (0 : Fin 2) * 2000 + 1 * (y 0).val = t.val * 2000 + 1 * (y 0).val; rw [e0]
      | ⟨1, _⟩ => show win0_6.index t (1 : Fin 2) * 128 + 1 * (y 1).val = (y 1).val; rw [e1]; omega)
  refine ((congrArg (k0_pay1 (iblk0 V c 0 t) (iblk0 V c 1 t) (iblk0 V c 2 t) (iblk0 V c 3 t) (iblk0 V c 4 t) (iblk0 V c 5 t)) hy).trans ?_).trans
    (congrArg (layerOf V c) he).symm
  exact point_eq (V c main_arg0) (V c main_v13) (V c main_arg2) (V c main_arg3) (V c main_arg4) (V c main_arg5)
    (iblk0 V c 0 t) (iblk0 V c 1 t) (iblk0 V c 2 t) (iblk0 V c 3 t) (iblk0 V c 4 t) (iblk0 V c 5 t)
    (y 0) (y 1) ⟨t.val * 2000 + 1 * (y 0).val, by omega⟩
    (fun j => blk_x V c t (y 0) j _ rfl) (fun j => blk_a V c t (y 0) j _ rfl)
    (blk_w1 V c t) (blk_b1 V c t) (blk_w2 V c t) (blk_b2 V c t)

/-- An index of the output array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v14).slice (win0_6.rect t)).set ↔ _
  rw [View.set_slice_whole, Rect.mem_set_unit]
  exact Iff.rfl

/-- After the launch the output array is `layerOf`: the 25 written-back blocks tile its 50000 rows. -/
theorem final (c : Dev nD) : (dat0 V c).arrAt 6 cfg0.N = layerOf V c :=
  (dat0 V c).arrAt_eq_of_cover 6 (layerOf V c) (fun t _ => flushed_eq V c t) fun i => by
    have h0 : (i 0).val < 50000 := (i 0).isLt
    have h1 : (i 1).val < 128 := (i 1).isLt
    have hN : cfg0.N = 25 := N_0
    have ht : (i 0).val / 2000 < cfg0.N := by rw [hN]; omega
    obtain ⟨-, -, -, -, -, -, -, -, -, -, e0, e1⟩ := idx_facts ⟨(i 0).val / 2000, ht⟩
    refine ⟨⟨(i 0).val / 2000, ht⟩, flush0_6 _, ?_⟩
    rw [mem_blk]
    intro a
    match a with
    | ⟨0, _⟩ =>
      show win0_6.index ⟨(i 0).val / 2000, ht⟩ (0 : Fin 2) * 2000 ≤ (i 0).val ∧ (i 0).val < win0_6.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win0_6.index ⟨(i 0).val / 2000, ht⟩ (1 : Fin 2) * 128 ≤ (i 1).val ∧ (i 1).val < win0_6.index ⟨(i 0).val / 2000, ht⟩ (1 : Fin 2) * 128 + 128
      rw [e1]; omega

end Cert.KernelIdeal.FirstLaunch

end
-- ==== Proof.SecondLaunch.lean ====
/-
  The second launch as one function of the arrays it finds. The grid has 25 points; point t stages rows
  2000·t … 2000·t + 1999 of the node array and of the neighbour-sum array, and the two weight matrices and the two bias
  vectors whole; its body leaves in the output's staging buffer, at row p and column q, the message-passing perceptron of
  row p of the two staged blocks (`Cert.Net.ginRows`), and that buffer is written back to rows 2000·t … of the output.
  An entry of `ginRows` depends on one row only, so what point t writes back is the block at rows 2000·t … of `ginRows`
  of the WHOLE arrays; the 25 blocks tile the 50000 rows (row r lies in the block of point r / 2000), hence after the
  launch the output array is `ginRows` of the arrays the launch was entered with.
-/
import proofs.«161390_j23828478558294_1_alg».proof.Proof.Gen.KernelIdeal.Frame
import proofs.«161390_j23828478558294_1_alg».proof.Proof.LibGinBodyF32
import Idealize.ShloMosaic.Lib.Pipeline.Value
import Idealize.ShloMosaic.Lib.ValueIdx

set_option maxRecDepth 16384

noncomputable section

namespace Cert.KernelIdeal.SecondLaunch

open Cert.KernelIdeal Cert.KernelIdeal.Gen Cert.Net
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's stored value at an entry is the perceptron of the entry's row of the two row blocks. -/
theorem pay_apply (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) :
    k1_pay1 x0 x1 x2 x3 x4 x5 (ix2 p q) = ginRows x0 x1 x2 x3 x4 x5 (ix2 p q) := by
  unfold k1_pay1
  exact gin_body_f32_apply dot_S2000x128_S128x128_S2000x128_1_0_0_1_n_n rfl dot_S2000x128_S128x128_S2000x128_1_0_0_1_n_n rfl
    x0 x1 (shapeCast S2000x128 x0 shapeCasts_S2000x128_S2000x128) (shapeCast S2000x128 x1 shapeCasts_S2000x128_S2000x128) (shapeCast_self x0 shapeCasts_S2000x128_S2000x128) (shapeCast_self x1 shapeCasts_S2000x128_S2000x128)
    x2 x3 x4 x5 shapeCasts_S128_S1x128 broadcasts_S1x128_S2000x128 shapeCasts_S128_S1x128 broadcasts_S1x128_S2000x128 bitsLt_bf16_f32 p q

/-- The same against whole arrays `X`, `A` of which row p of the two blocks is row r. -/
theorem point_eq (X A : FVec Ideal S50000x128 .f32) (W1 : FVec Ideal S128x128 .f32) (B1 : FVec Ideal S128 .f32)
    (W2 : FVec Ideal S128x128 .f32) (B2 : FVec Ideal S128 .f32)
    (x0 x1 : Vec Ideal S2000x128 .f32) (x2 : Vec Ideal S128x128 .f32) (x3 : Vec Ideal S128 .f32)
    (x4 : Vec Ideal S128x128 .f32) (x5 : Vec Ideal S128 .f32) (p : Fin 2000) (q : Fin 128) (r : Fin 50000)
    (h0 : ∀ j : Fin 128, x0 (ix2 p j) = X (ix2 r j)) (h1 : ∀ j : Fin 128, x1 (ix2 p j) = A (ix2 r j))
    (h2 : x2 = W1) (h3 : x3 = B1) (h4 : x4 = W2) (h5 : x5 = B2) :
    k1_pay1 x0 x1 x2 x3 x4 x5 (ix2 p q) = ginRows X A W1 B1 W2 B2 (ix2 r q) := by
  subst h2 h3 h4 h5
  rw [pay_apply]
  exact ginRows_rows X A x0 x1 x2 x3 x4 x5 p r q h0 h1

/-- The printed index maps over the grid: the row-block windows sit at block row t, the others at the origin. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row p of the node window's block at point t is row 2000·t + p of the node array. -/
theorem blk_x (c : Dev nD) (t : Fin cfg1.N) (y0 : Fin 2000) (j : Fin 128) (r : Fin 50000) (hr : r.val = t.val * 2000 + 1 * y0.val) :
    (iblk1 V c 0 t : Vec Ideal S2000x128 .f32) (ix2 y0 j) = (V c main_v14 : FVec Ideal S50000x128 .f32) (ix2 r j) := by
  obtain ⟨e0, e1, -⟩ := idx_facts t
  unfold iblk1
  rw [View.read_apply]
  show V c main_v14 _ = V c main_v14 _
  refine congrArg (V c main_v14) (funext fun a => Fin.ext ?_)
  match a with
  | ⟨0, _⟩ => show win1_0.index t (0 : Fin 2) * 2000 + 1 * y0.val = r.val; rw [e0, hr]
  | ⟨1, _⟩ => show win1_0.index t (1 : Fin 2) * 128 + 1 * j.val = j.val; rw [e1]; omega

/-- Row p of the neighbour-sum window's block at point t is row 2000·t + p of the neighbour-sum array. -/
theorem blk_a (c : Dev nD) (t : Fin cfg1.N) (y0 : Fin 2000) (j : Fin 128) (r : Fin 50000) (hr : r.val = t.val * 2000 + 1 * y0.val) :
    (iblk1 V c 1 t : Vec Ideal S2000x128 .f32) (ix2 y0 j) = (V c main_v24 : FVec Ideal S50000x128 .f32) (ix2 r j) := by
  obtain ⟨-, -, e0, e1, -⟩ := idx_facts t
  unfold iblk1
  rw [View.read_apply]
  show V c main_v24 _ = V c main_v24 _
  refine congrArg (V c main_v24) (funext fun a => Fin.ext ?_)
  match a with
  | ⟨0, _⟩ => show win1_1.index t (0 : Fin 2) * 2000 + 1 * y0.val = r.val; rw [e0, hr]
  | ⟨1, _⟩ => show win1_1.index t (1 : Fin 2) * 128 + 1 * j.val = j.val; rw [e1]; omega

/-- The weight and bias windows stage their arrays whole at every point. -/
theorem blk_w1 (c : Dev nD) (t : Fin cfg1.N) : (iblk1 V c 2 t : Vec Ideal S128x128 .f32) = V c main_arg6 := by
  obtain ⟨-, -, -, -, e0, e1, -⟩ := idx_facts t
  unfold iblk1
  funext y
  rw [View.read_apply]
  show V c main_arg6 _ = V c main_arg6 y
  refine congrArg (V c main_arg6) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem blk_b1 (c : Dev nD) (t : Fin cfg1.N) : (iblk1 V c 3 t : Vec Ideal S128 .f32) = V c main_arg7 := by
  obtain ⟨-, -, -, -, -, -, e0, -⟩ := idx_facts t
  unfold iblk1
  funext y
  rw [View.read_apply]
  show V c main_arg7 _ = V c main_arg7 y
  refine congrArg (V c main_arg7) (funext fun a => Fin.ext ?_)
  match a with
  | ⟨0, _⟩ => show win1_3.index t (0 : Fin 1) * 128 + 1 * (y 0).val = (y 0).val; rw [e0]; omega

theorem blk_w2 (c : Dev nD) (t : Fin cfg1.N) : (iblk1 V c 4 t : Vec Ideal S128x128 .f32) = V c main_arg8 := by
  obtain ⟨-, -, -, -, -, -, -, e0, e1, -⟩ := idx_facts t
  unfold iblk1
  funext y
  rw [View.read_apply]
  show V c main_arg8 _ = V c main_arg8 y
  refine congrArg (V c main_arg8) (funext fun a => Fin.ext ?_)
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

theorem blk_b2 (c : Dev nD) (t : Fin cfg1.N) : (iblk1 V c 5 t : Vec Ideal S128 .f32) = V c main_arg9 := by
  obtain ⟨-, -, -, -, -, -, -, -, -, e0, -⟩ := idx_facts t
  unfold iblk1
  funext y
  rw [View.read_apply]
  show V c main_arg9 _ = V c main_arg9 y
  refine congrArg (V c main_arg9) (funext fun a => Fin.ext ?_)
  match a with
  | ⟨0, _⟩ => show win1_5.index t (0 : Fin 1) * 128 + 1 * (y 0).val = (y 0).val; rw [e0]; omega

/-- The launch's result as a function of the arrays it is entered with. -/
abbrev layerOf (c : Dev nD) : FVec Ideal S50000x128 .f32 :=
  ginRows (V c main_v14) (V c main_v24) (V c main_arg6) (V c main_arg7) (V c main_arg8) (V c main_arg9)

/-- What point t writes back is block t of `layerOf`. -/
theorem flushed_eq (c : Dev nD) (t : Fin cfg1.N) :
    (dat1 V c).flushed 6 t = ((cfg1.win 6).blk t).view.read (Elt Ideal) (layerOf V c) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S128x128) hz2, View.ld_unit_zero (S := S128) hz1]
  obtain ⟨-, -, -, -, -, -, -, -, -, -, e0, e1⟩ := idx_facts t
  have hN : cfg1.N = 25 := N_1
  have htl : t.val < cfg1.N := t.isLt
  funext y
  have hy0 : (y 0).val < 2000 := (y 0).isLt
  show k1_pay1 (iblk1 V c 0 t) (iblk1 V c 1 t) (iblk1 V c 2 t) (iblk1 V c 3 t) (iblk1 V c 4 t) (iblk1 V c 5 t) y
    = layerOf V c (((cfg1.win 6).blk t).view.emb y)
  have hy : y = ix2 (n0 := 2000) (n1 := 128) (y 0) (y 1) := eq_ix2 (n0 := 2000) (n1 := 128) y
  have he : ((cfg1.win 6).blk t).view.emb y
      = ix2 (n0 := 50000) (n1 := 128) ⟨t.val * 2000 + 1 * (y 0).val, by omega⟩ (y 1) :=
    funext fun a => Fin.ext (by
      match a with
      | ⟨0, _⟩ => show win1_6.index t (0 : Fin 2) * 2000 + 1 * (y 0).val = t.val * 2000 + 1 * (y 0).val; rw [e0]
      | ⟨1, _⟩ => show win1_6.index t (1 : Fin 2) * 128 + 1 * (y 1).val = (y 1).val; rw [e1]; omega)
  refine ((congrArg (k1_pay1 (iblk1 V c 0 t) (iblk1 V c 1 t) (iblk1 V c 2 t) (iblk1 V c 3 t) (iblk1 V c 4 t) (iblk1 V c 5 t)) hy).trans ?_).trans
    (congrArg (layerOf V c) he).symm
  exact point_eq (V c main_v14) (V c main_v24) (V c main_arg6) (V c main_arg7) (V c main_arg8) (V c main_arg9)
    (iblk1 V c 0 t) (iblk1 V c 1 t) (iblk1 V c 2 t) (iblk1 V c 3 t) (iblk1 V c 4 t) (iblk1 V c 5 t)
    (y 0) (y 1) ⟨t.val * 2000 + 1 * (y 0).val, by omega⟩
    (fun j => blk_x V c t (y 0) j _ rfl) (fun j => blk_a V c t (y 0) j _ rfl)
    (blk_w1 V c t) (blk_b1 V c t) (blk_w2 V c t) (blk_b2 V c t)

/-- An index of the output array is in point t's block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v25).slice (win1_6.rect t)).set ↔ _
  rw [View.set_slice_whole, Rect.mem_set_unit]
  exact Iff.rfl

/-- After the launch the output array is `layerOf`: the 25 written-back blocks tile its 50000 rows. -/
theorem final (c : Dev nD) : (dat1 V c).arrAt 6 cfg1.N = layerOf V c :=
  (dat1 V c).arrAt_eq_of_cover 6 (layerOf V c) (fun t _ => flushed_eq V c t) fun i => by
    have h0 : (i 0).val < 50000 := (i 0).isLt
    have h1 : (i 1).val < 128 := (i 1).isLt
    have hN : cfg1.N = 25 := N_1
    have ht : (i 0).val / 2000 < cfg1.N := by rw [hN]; omega
    obtain ⟨-, -, -, -, -, -, -, -, -, -, e0, e1⟩ := idx_facts ⟨(i 0).val / 2000, ht⟩
    refine ⟨⟨(i 0).val / 2000, ht⟩, flush1_6 _, ?_⟩
    rw [mem_blk]
    intro a
    match a with
    | ⟨0, _⟩ =>
      show win1_6.index ⟨(i 0).val / 2000, ht⟩ (0 : Fin 2) * 2000 ≤ (i 0).val ∧ (i 0).val < win1_6.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win1_6.index ⟨(i 0).val / 2000, ht⟩ (1 : Fin 2) * 128 ≤ (i 1).val ∧ (i 1).val < win1_6.index ⟨(i 0).val / 2000, ht⟩ (1 : Fin 2) * 128 + 128
      rw [e1]; omega

end Cert.KernelIdeal.SecondLaunch

end
-- ==== Proof.GinNet.lean ====
/-
  Two message-passing layers, one after the other, as one function of the arguments. A layer maps a node array `X` to
  `ginRows X (agg X)`: each row of `X` plus the row of the neighbour sums `agg X`, through the layer's two-layer
  perceptron, floored at zero after each layer. The neighbour sum `agg` (gather the source rows, scatter-add them onto
  the destination rows) is the same host computation in both programs and is kept as an opaque function of the node
  array: nothing below looks inside it.
-/
import proofs.«161390_j23828478558294_1_alg».proof.Proof.LibGinStages

noncomputable section

namespace Cert.Net

open Idealize.ShloMosaic Idealize.ShloMosaic.ValueIdx

/-- One layer: the dense stage applied to the node array and its neighbour sums. -/
def layer {N D : ℕ} (agg : ((⟨2, ![N, D]⟩ : Shape).Idx → EReal) → (⟨2, ![N, D]⟩ : Shape).Idx → EReal)
    (X : (⟨2, ![N, D]⟩ : Shape).Idx → EReal) (w1 : (⟨2, ![D, D]⟩ : Shape).Idx → EReal) (b1 : (⟨1, ![D]⟩ : Shape).Idx → EReal)
    (w2 : (⟨2, ![D, D]⟩ : Shape).Idx → EReal) (b2 : (⟨1, ![D]⟩ : Shape).Idx → EReal) : (⟨2, ![N, D]⟩ : Shape).Idx → EReal :=
  ginRows X (agg X) w1 b1 w2 b2

/-- The network: the second layer applied to the first layer's result, with the same neighbour structure. -/
def net2 {N D : ℕ} (agg : ((⟨2, ![N, D]⟩ : Shape).Idx → EReal) → (⟨2, ![N, D]⟩ : Shape).Idx → EReal)
    (X : (⟨2, ![N, D]⟩ : Shape).Idx → EReal)
    (w1a : (⟨2, ![D, D]⟩ : Shape).Idx → EReal) (b1a : (⟨1, ![D]⟩ : Shape).Idx → EReal)
    (w2a : (⟨2, ![D, D]⟩ : Shape).Idx → EReal) (b2a : (⟨1, ![D]⟩ : Shape).Idx → EReal)
    (w1b : (⟨2, ![D, D]⟩ : Shape).Idx → EReal) (b1b : (⟨1, ![D]⟩ : Shape).Idx → EReal)
    (w2b : (⟨2, ![D, D]⟩ : Shape).Idx → EReal) (b2b : (⟨1, ![D]⟩ : Shape).Idx → EReal) : (⟨2, ![N, D]⟩ : Shape).Idx → EReal :=
  layer agg (layer agg X w1a b1a w2a b2a) w1b b1b w2b b2b

end Cert.Net

end
-- ==== Proof.KernelValue.lean ====
/-
  The idealized kernel's result array, read back through the four stretches of the program, is the two-layer network
  `Cert.Net.net2` of the arguments. Walking backwards from the last boundary: the second launch leaves the dense stage of
  the arrays it is entered with; those are the first launch's result, its neighbour sums as the second host stretch computes
  them (from the edge lists the first stretch cut out of the index array, which no launch touches), and the second
  layer's weights as launched; the first launch leaves the dense stage of the node array, its neighbour sums as the
  first host stretch computes them, and the first layer's weights. The neighbour sums are kept as the host writes them
  (`neighbourSum`) and never opened.
-/
import proofs.«161390_j23828478558294_1_alg».proof.Proof.Gen.KernelIdeal.Frame
import proofs.«161390_j23828478558294_1_alg».proof.Proof.FirstLaunch
import proofs.«161390_j23828478558294_1_alg».proof.Proof.SecondLaunch
import proofs.«161390_j23828478558294_1_alg».proof.Proof.GinNet
import Idealize.ShloMosaic.Lib.StableHlo.Run

set_option maxRecDepth 16384

noncomputable section

namespace Cert.KernelIdeal.Hand

open Cert.KernelIdeal Cert.KernelIdeal.Gen Cert.Net
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The source node of every edge: row 0 of the index array as a vector. -/
def srcRows (e : IVec S2x800000 32) : IVec S800000 32 :=
  shapeCast _ (extractStridedSlice S1x800000 ![0, 0] e slices_S2x800000_S1x800000_0_0) shapeCasts_S1x800000_S800000

/-- The destination node of every edge: row 1 of the index array as a vector. -/
def dstRows (e : IVec S2x800000 32) : IVec S800000 32 :=
  shapeCast _ (extractStridedSlice S1x800000 ![1, 0] e slices_S2x800000_S1x800000_1_0) shapeCasts_S1x800000_S800000

/-- The neighbour sums from the two edge lists: negative source indices wrapped, the source rows gathered and
    scatter-added from zero onto the destination rows. -/
def neighbourSumOf (s d : IVec S800000 32) (x : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The neighbour sums of a node array under the index array `e`. -/
def neighbourSum (e : IVec S2x800000 32) (x : FVec Ideal S50000x128 .f32) : FVec Ideal S50000x128 .f32 :=
  neighbourSumOf (srcRows e) (dstRows e) x

/-! ## The first host stretch -/

theorem first_src (c : Dev nD) : W1 m ρ c (Proc.devRef .tc main_v1) = srcRows (m ((c.tc : Thread nD τ).loc main_arg1)) := by
  show StableHlo.after hostOps0 (W0 m ρ c) (Proc.devRef .tc main_v1) = _
  after_results
  rfl

theorem first_dst (c : Dev nD) : W1 m ρ c (Proc.devRef .tc main_v3) = dstRows (m ((c.tc : Thread nD τ).loc main_arg1)) := by
  show StableHlo.after hostOps0 (W0 m ρ c) (Proc.devRef .tc main_v3) = _
  after_results
  rfl

theorem first_agg (c : Dev nD) : W1 m ρ c (Proc.devRef .tc main_v13) = neighbourSum (m ((c.tc : Thread nD τ).loc main_arg1)) (m ((c.tc : Thread nD τ).loc main_arg0)) := by
  show StableHlo.after hostOps0 (W0 m ρ c) (Proc.devRef .tc main_v13) = _
  after_results
  rfl

theorem first_arg0 (c : Dev nD) : W1 m ρ c (Proc.devRef .tc main_arg0) = m ((c.tc : Thread nD τ).loc main_arg0) := by
  show StableHlo.after hostOps0 (W0 m ρ c) (Proc.devRef .tc main_arg0) = _
  after_results

theorem first_arg2 (c : Dev nD) : W1 m ρ c (Proc.devRef .tc main_arg2) = m ((c.tc : Thread nD τ).loc main_arg2) := by
  show StableHlo.after hostOps0 (W0 m ρ c) (Proc.devRef .tc main_arg2) = _
  after_results

theorem first_arg3 (c : Dev nD) : W1 m ρ c (Proc.devRef .tc main_arg3) = m ((c.tc : Thread nD τ).loc main_arg3) := by
  show StableHlo.after hostOps0 (W0 m ρ c) (Proc.devRef .tc main_arg3) = _
  after_results

theorem first_arg4 (c : Dev nD) : W1 m ρ c (Proc.devRef .tc main_arg4) = m ((c.tc : Thread nD τ).loc main_arg4) := by
  show StableHlo.after hostOps0 (W0 m ρ c) (Proc.devRef .tc main_arg4) = _
  after_results

theorem first_arg5 (c : Dev nD) : W1 m ρ c (Proc.devRef .tc main_arg5) = m ((c.tc : Thread nD τ).loc main_arg5) := by
  show StableHlo.after hostOps0 (W0 m ρ c) (Proc.devRef .tc main_arg5) = _
  after_results

theorem first_arg6 (c : Dev nD) : W1 m ρ c (Proc.devRef .tc main_arg6) = m ((c.tc : Thread nD τ).loc main_arg6) := by
  show StableHlo.after hostOps0 (W0 m ρ c) (Proc.devRef .tc main_arg6) = _
  after_results

theorem first_arg7 (c : Dev nD) : W1 m ρ c (Proc.devRef .tc main_arg7) = m ((c.tc : Thread nD τ).loc main_arg7) := by
  show StableHlo.after hostOps0 (W0 m ρ c) (Proc.devRef .tc main_arg7) = _
  after_results

theorem first_arg8 (c : Dev nD) : W1 m ρ c (Proc.devRef .tc main_arg8) = m ((c.tc : Thread nD τ).loc main_arg8) := by
  show StableHlo.after hostOps0 (W0 m ρ c) (Proc.devRef .tc main_arg8) = _
  after_results

theorem first_arg9 (c : Dev nD) : W1 m ρ c (Proc.devRef .tc main_arg9) = m ((c.tc : Thread nD τ).loc main_arg9) := by
  show StableHlo.after hostOps0 (W0 m ρ c) (Proc.devRef .tc main_arg9) = _
  after_results

/-! ## The first launch -/

/-- The first launch's result: the first layer of the node array. -/
theorem first_layer (c : Dev nD) : W2 m ρ c (Proc.devRef .tc main_v14)
    = layer (neighbourSum (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  refine (W2_arr m ρ c 6).trans ((FirstLaunch.final (V1 m ρ) c).trans ?_)
  show ginRows (W1 m ρ c (Proc.devRef .tc main_arg0)) (W1 m ρ c (Proc.devRef .tc main_v13)) (W1 m ρ c (Proc.devRef .tc main_arg2))
    (W1 m ρ c (Proc.devRef .tc main_arg3)) (W1 m ρ c (Proc.devRef .tc main_arg4)) (W1 m ρ c (Proc.devRef .tc main_arg5)) = _
  rw [first_arg0, first_agg, first_arg2, first_arg3, first_arg4, first_arg5]
  rfl

/-- What the first launch does not write it leaves: the edge lists and the second layer's weights. -/
theorem mid_src (c : Dev nD) : W2 m ρ c (Proc.devRef .tc main_v1) = srcRows (m ((c.tc : Thread nD τ).loc main_arg1)) :=
  (W2_of_ne m ρ c main_v1 (by decide)).trans (first_src m ρ c)
theorem mid_dst (c : Dev nD) : W2 m ρ c (Proc.devRef .tc main_v3) = dstRows (m ((c.tc : Thread nD τ).loc main_arg1)) :=
  (W2_of_ne m ρ c main_v3 (by decide)).trans (first_dst m ρ c)
theorem mid_arg6 (c : Dev nD) : W2 m ρ c (Proc.devRef .tc main_arg6) = m ((c.tc : Thread nD τ).loc main_arg6) :=
  (W2_of_ne m ρ c main_arg6 (by decide)).trans (first_arg6 m ρ c)
theorem mid_arg7 (c : Dev nD) : W2 m ρ c (Proc.devRef .tc main_arg7) = m ((c.tc : Thread nD τ).loc main_arg7) :=
  (W2_of_ne m ρ c main_arg7 (by decide)).trans (first_arg7 m ρ c)
theorem mid_arg8 (c : Dev nD) : W2 m ρ c (Proc.devRef .tc main_arg8) = m ((c.tc : Thread nD τ).loc main_arg8) :=
  (W2_of_ne m ρ c main_arg8 (by decide)).trans (first_arg8 m ρ c)
theorem mid_arg9 (c : Dev nD) : W2 m ρ c (Proc.devRef .tc main_arg9) = m ((c.tc : Thread nD τ).loc main_arg9) :=
  (W2_of_ne m ρ c main_arg9 (by decide)).trans (first_arg9 m ρ c)

/-! ## The second host stretch -/

theorem second_x (c : Dev nD) : W3 m ρ c (Proc.devRef .tc main_v14) = W2 m ρ c (Proc.devRef .tc main_v14) := by
  show StableHlo.after hostOps1 (W2 m ρ c) (Proc.devRef .tc main_v14) = _
  after_results

theorem second_agg (c : Dev nD) : W3 m ρ c (Proc.devRef .tc main_v24)
    = neighbourSumOf (W2 m ρ c (Proc.devRef .tc main_v1)) (W2 m ρ c (Proc.devRef .tc main_v3)) (W2 m ρ c (Proc.devRef .tc main_v14)) := by
  show StableHlo.after hostOps1 (W2 m ρ c) (Proc.devRef .tc main_v24) = _
  after_results
  rfl

theorem second_arg6 (c : Dev nD) : W3 m ρ c (Proc.devRef .tc main_arg6) = m ((c.tc : Thread nD τ).loc main_arg6) := by
  refine Eq.trans ?_ (mid_arg6 m ρ c)
  show StableHlo.after hostOps1 (W2 m ρ c) (Proc.devRef .tc main_arg6) = _
  after_results

theorem second_arg7 (c : Dev nD) : W3 m ρ c (Proc.devRef .tc main_arg7) = m ((c.tc : Thread nD τ).loc main_arg7) := by
  refine Eq.trans ?_ (mid_arg7 m ρ c)
  show StableHlo.after hostOps1 (W2 m ρ c) (Proc.devRef .tc main_arg7) = _
  after_results

theorem second_arg8 (c : Dev nD) : W3 m ρ c (Proc.devRef .tc main_arg8) = m ((c.tc : Thread nD τ).loc main_arg8) := by
  refine Eq.trans ?_ (mid_arg8 m ρ c)
  show StableHlo.after hostOps1 (W2 m ρ c) (Proc.devRef .tc main_arg8) = _
  after_results

theorem second_arg9 (c : Dev nD) : W3 m ρ c (Proc.devRef .tc main_arg9) = m ((c.tc : Thread nD τ).loc main_arg9) := by
  refine Eq.trans ?_ (mid_arg9 m ρ c)
  show StableHlo.after hostOps1 (W2 m ρ c) (Proc.devRef .tc main_arg9) = _
  after_results

/-! ## The second launch: the result -/

/-- The result array at the last boundary is the network of the arguments. -/
theorem result_eq (c : Dev nD) : W4 m ρ c (Proc.devRef .tc main_v25)
    = net2 (neighbourSum (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9)) := by
  refine (W4_arr m ρ c 6).trans ((SecondLaunch.final (V3 m ρ) c).trans ?_)
  show ginRows (W3 m ρ c (Proc.devRef .tc main_v14)) (W3 m ρ c (Proc.devRef .tc main_v24)) (W3 m ρ c (Proc.devRef .tc main_arg6))
    (W3 m ρ c (Proc.devRef .tc main_arg7)) (W3 m ρ c (Proc.devRef .tc main_arg8)) (W3 m ρ c (Proc.devRef .tc main_arg9)) = _
  rw [second_x, second_agg, second_arg6, second_arg7, second_arg8, second_arg9, mid_src, mid_dst, first_layer]
  rfl

end Cert.KernelIdeal.Hand

end
-- ==== Proof.RefStages.lean ====
/-
  The reference, read: its result is the two-layer network `Cert.Net.net2` of its arguments. Each layer of the host
  program is the sum of the node array and its neighbour sums, a `dot_general` with the first weights, the first bias
  broadcast in two steps, a maximum with a broadcast zero, a second `dot_general`, the second bias, and the outer maximum
  with zero: entry by entry the dense stage `ginRows`. The neighbour sums (`neighbourSum`: slice the two edge lists out
  of the index array, wrap negative source indices, gather the source rows, scatter-add them from zero onto the
  destination rows) are kept as written and never opened.
-/
import proofs.«161390_j23828478558294_1_alg».proof.Proof.Gen.ReferenceIdeal.Run
import proofs.«161390_j23828478558294_1_alg».proof.Proof.GinNet
import Idealize.ShloMosaic.Lib.ValueIdx

set_option maxRecDepth 16384

noncomputable section

namespace Cert.ReferenceIdeal.Hand

open Cert.ReferenceIdeal Cert.ReferenceIdeal.Gen Cert.Net
open Idealize.ShloMosaic Idealize.ShloMosaic.TcCoe Idealize.ShloMosaic.ValueIdx Idealize.SL.Sem

/-- The source node of every edge: row 0 of the index array as a vector. -/
def srcRows (e : IVec S2x800000 32) : IVec S800000 32 :=
  shapeCast _ (extractStridedSlice S1x800000 ![0, 0] e slices_S2x800000_S1x800000_0_0) shapeCasts_S1x800000_S800000

/-- The neighbour sums of a node array under the edge lists `e`, exactly as the host program writes them. -/
def neighbourSum (e : IVec S2x800000 32) (x : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast _ (extractStridedSlice S1x800000 ![1, 0] e slices_S2x800000_S1x800000_1_0) shapeCasts_S1x800000_S800000))
    (Host.gather gather_S50000x128_S800000x1_S800000x128_1_0_n_n_0_1_1128 x
      (broadcastInDim S800000x1 ![0] bcast_S800000_S800000x1_0
        (select (cmpi .slt (srcRows e) (broadcastInDim S800000 ![] bcast_S_S800000 (constantI S_ 32 0#32)))
          (addi (srcRows e) (broadcastInDim S800000 ![] bcast_S_S800000 (constantI S_ 32 50000#32))) (srcRows e))))

/-- One layer as the host spells it is the dense stage of the node array and its neighbour sums. -/
theorem host_layer (agg : FVec Ideal S50000x128 .f32 → FVec Ideal S50000x128 .f32)
    (x : FVec Ideal S50000x128 .f32) (w1 : FVec Ideal S128x128 .f32) (b1 : FVec Ideal S128 .f32)
    (w2 : FVec Ideal S128x128 .f32) (b2 : FVec Ideal S128 .f32) :
    maximumf (addf (Host.dotGeneral dot_S50000x128_S128x128_S50000x128_1_0_0_1_n_n none
        (maximumf (addf (Host.dotGeneral dot_S50000x128_S128x128_S50000x128_1_0_0_1_n_n none (addf x (agg x)) w1)
          (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32))) w2)
        (broadcastInDim S50000x128 ![0, 1] bcast_S1x128_S50000x128_0_1 (broadcastInDim S1x128 ![1] bcast_S128_S1x128_1 b2)))
      (broadcastInDim S50000x128 ![] bcast_S_S50000x128 (constant (F := Ideal) S_ .f32 0x00000000#32))
    = layer agg x w1 b1 w2 b2 := by
  funext i
  rw [eq_ix2 i]
  exact gin_host_apply dot_S50000x128_S128x128_S50000x128_1_0_0_1_n_n rfl dot_S50000x128_S128x128_S50000x128_1_0_0_1_n_n rfl
    x (agg x) w1 b1 w2 b2 bcast_S128_S1x128_1 bcast_S1x128_S50000x128_0_1 bcast_S_S50000x128
    bcast_S128_S1x128_1 bcast_S1x128_S50000x128_0_1 bcast_S_S50000x128 (i 0) (i 1)

/-- The reference run's result term is the network of the arguments. -/
theorem result_eq (m : (ℓ : Loc nD τ sig) → Buf (Elt Ideal) ℓ) (c : Dev nD) :
    Cert.ReferenceIdeal.Value.res_main_v45 (F := Ideal) m c
      = net2 (neighbourSum (m ((c.tc : Thread nD τ).loc main_arg1))) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold net2
  rw [← host_layer (neighbourSum (m ((c.tc : Thread nD τ).loc main_arg1))) _ (m ((c.tc : Thread nD τ).loc main_arg6))
        (m ((c.tc : Thread nD τ).loc main_arg7)) (m ((c.tc : Thread nD τ).loc main_arg8)) (m ((c.tc : Thread nD τ).loc main_arg9)),
      ← host_layer (neighbourSum (m ((c.tc : Thread nD τ).loc main_arg1))) (m ((c.tc : Thread nD τ).loc main_arg0)) (m ((c.tc : Thread nD τ).loc main_arg2))
        (m ((c.tc : Thread nD τ).loc main_arg3)) (m ((c.tc : Thread nD τ).loc main_arg4)) (m ((c.tc : Thread nD τ).loc main_arg5))]
  rfl

end Cert.ReferenceIdeal.Hand

end
-- ==== Proof.lean ====
/-
  The certificate of a two-layer graph-isomorphism network: the kernel computes each layer's neighbour sums on the host
  (gather the source rows of every edge, scatter-add them onto the destination rows) and the layer's dense half — the
  node's row plus its neighbours' sum through a two-layer perceptron with a ReLU after each layer — in a launch over 25
  blocks of 2000 rows; the reference computes the same on the host with whole-array matrix products.
  On the extended reals the two agree entry by entry and no finiteness is needed: rounding the operands of a product to
  bfloat16 is the identity there, a product accumulated from a zero accumulator and the host's `dot_general` are the same
  sum of the same products, a bias laid out as a row and repeated is the bias broadcast in two steps, and an entry of a
  layer's dense half depends on one row of its operands, so the 25 row blocks of the launch's result are the blocks of the
  whole-array function. The neighbour sums are the same host operations in both programs and are never opened.
  Both programs therefore end at `Cert.Net.net2` of the arguments (KernelValue.lean over KernelRun.lean and the two
  launch modules; RefStages.lean over the reference's run). The three frames are the generated ones (the reference's is
  its run with the result dropped); the idealization rewrote nothing, so its conjunct is trivial.
-/
import proofs.«161390_j23828478558294_1_alg».proof.Defs
import proofs.«161390_j23828478558294_1_alg».proof.Proof.Gen.Kernel
import proofs.«161390_j23828478558294_1_alg».proof.Proof.Gen.Kernel.Skeleton
import proofs.«161390_j23828478558294_1_alg».proof.Proof.Gen.Kernel.Launch
import proofs.«161390_j23828478558294_1_alg».proof.Proof.Gen.Kernel.Points
import proofs.«161390_j23828478558294_1_alg».proof.Proof.Gen.Kernel.Frame
import proofs.«161390_j23828478558294_1_alg».proof.Proof.Gen.KernelIdeal
import proofs.«161390_j23828478558294_1_alg».proof.Proof.Gen.KernelIdeal.Skeleton
import proofs.«161390_j23828478558294_1_alg».proof.Proof.Gen.KernelIdeal.Launch
import proofs.«161390_j23828478558294_1_alg».proof.Proof.Gen.KernelIdeal.Points
import proofs.«161390_j23828478558294_1_alg».proof.Proof.Gen.KernelIdeal.Frame
import proofs.«161390_j23828478558294_1_alg».proof.Proof.Gen.ReferenceIdeal
import proofs.«161390_j23828478558294_1_alg».proof.Proof.Gen.ReferenceIdeal.Run
import proofs.«161390_j23828478558294_1_alg».proof.Proof.Gen.Pre_finite_inputs
import proofs.«161390_j23828478558294_1_alg».proof.Proof.KernelRun
import proofs.«161390_j23828478558294_1_alg».proof.Proof.KernelValue
import proofs.«161390_j23828478558294_1_alg».proof.Proof.RefStages
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- The neighbour sums are one host computation in the two programs: the same slices, the same index wrap, the same
    gather and scatter-add with the same dimension numbers. -/
theorem neighbourSum_eq (e : IVec ⟨2, ![2, 800000]⟩ 32) (x : FVec Ideal ⟨2, ![50000, 128]⟩ .f32) :
    Cert.ReferenceIdeal.Hand.neighbourSum e x = Cert.KernelIdeal.Hand.neighbourSum e x := rfl

/-- Both programs end at the two-layer network of arguments that agree. -/
theorem algebraic : Cert.algebraic_KernelIdeal_ReferenceIdeal := by
  intro m ρ m' ρ' _ hagree
  refine ⟨fun c => Cert.Net.net2 (Cert.KernelIdeal.Hand.neighbourSum (m ((c.tc : Thread Cert.KernelIdeal.nD Cert.KernelIdeal.τ).loc Cert.KernelIdeal.main_arg1))) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Hand.result_eq m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Hand.result_eq m' c, a0, a1, a2, a3, a4, a5, a6, a7, a8, a9]
    exact congrArg (fun agg => Cert.Net.net2 agg (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
      (funext fun x => neighbourSum_eq (m ((c.tc : Thread Cert.KernelIdeal.nD Cert.KernelIdeal.τ).loc Cert.KernelIdeal.main_arg1)) x)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
